-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S10000x128 : Shape := ⟨2, ![10000, 128]⟩
abbrev S10000x64 : Shape := ⟨2, ![10000, 64]⟩

abbrev nBuf : Space → Nat
  | .hbm => 86
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .bf16⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .bf16⟩
  | .hbm, ⟨56, _⟩ => ⟨S1700000x128, .f32⟩
  | .hbm, ⟨57, _⟩ => ⟨S1700000x1, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S1x128, .f32⟩
  | .hbm, ⟨65, _⟩ => ⟨S100000x64, .bf16⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x64, .bf16⟩
  | .hbm, ⟨75, _⟩ => ⟨S1700000x64, .f32⟩
  | .hbm, ⟨76, _⟩ => ⟨S1700000x1, .f32⟩
  | .hbm, ⟨77, _⟩ => ⟨S1700000x64, .f32⟩
  | .hbm, ⟨78, _⟩ => ⟨S1700000x64, .f32⟩
  | .hbm, ⟨79, _⟩ => ⟨S_, .f32⟩
  | .hbm, ⟨80, _⟩ => ⟨S100000x64, .f32⟩
  | .hbm, ⟨81, _⟩ => ⟨S1700000x1, .i32⟩
  | .hbm, ⟨82, _⟩ => ⟨S100000x64, .f32⟩
  | .hbm, ⟨83, _⟩ => ⟨S1x64, .f32⟩
  | .hbm, ⟨84, _⟩ => ⟨S100000x64, .f32⟩
  | .hbm, ⟨85, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .bf16⟩
  | .local _ .vmem, ⟨4, _⟩ => ⟨S10000x128, .bf16⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S128x64, .f32⟩
  | .local _ .vmem, ⟨9, _⟩ => ⟨S10000x64, .bf16⟩
  | .local _ .vmem, ⟨10, _⟩ => ⟨S10000x64, .bf16⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst : Ref sig .tc := ⟨.hbm, 13, rfl⟩
abbrev main_call0_v7 : Ref sig .tc := ⟨.hbm, 14, rfl⟩
abbrev main_call0_cst_0 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_cst_1 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_cst_2 : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_v14 : Ref sig .tc := ⟨.hbm, 26, rfl⟩
abbrev main_call0_c : Ref sig .tc := ⟨.hbm, 27, rfl⟩
abbrev main_call0_v15 : Ref sig .tc := ⟨.hbm, 28, rfl⟩
abbrev main_call0_v16 : Ref sig .tc := ⟨.hbm, 29, rfl⟩
abbrev main_call0_c_3 : Ref sig .tc := ⟨.hbm, 30, rfl⟩
abbrev main_call0_v17 : Ref sig .tc := ⟨.hbm, 31, rfl⟩
abbrev main_call0_v18 : Ref sig .tc := ⟨.hbm, 32, rfl⟩
abbrev main_call0_v19 : Ref sig .tc := ⟨.hbm, 33, rfl⟩
abbrev main_call0_v20 : Ref sig .tc := ⟨.hbm, 34, rfl⟩
abbrev main_call0_v21 : Ref sig .tc := ⟨.hbm, 35, rfl⟩
abbrev main_call0_c_4 : Ref sig .tc := ⟨.hbm, 36, rfl⟩
abbrev main_call0_v22 : Ref sig .tc := ⟨.hbm, 37, rfl⟩
abbrev main_call0_v23 : Ref sig .tc := ⟨.hbm, 38, rfl⟩
abbrev main_call0_c_5 : Ref sig .tc := ⟨.hbm, 39, rfl⟩
abbrev main_call0_v24 : Ref sig .tc := ⟨.hbm, 40, rfl⟩
abbrev main_call0_v25 : Ref sig .tc := ⟨.hbm, 41, rfl⟩
abbrev main_call0_v26 : Ref sig .tc := ⟨.hbm, 42, rfl⟩
abbrev main_call0_v27 : Ref sig .tc := ⟨.hbm, 43, rfl⟩
abbrev main_call0_v28 : Ref sig .tc := ⟨.hbm, 44, rfl⟩
abbrev main_call0_v29 : Ref sig .tc := ⟨.hbm, 45, rfl⟩
abbrev main_call0_v30 : Ref sig .tc := ⟨.hbm, 46, rfl⟩
abbrev main_call0_c_6 : Ref sig .tc := ⟨.hbm, 47, rfl⟩
abbrev main_call0_v31 : Ref sig .tc := ⟨.hbm, 48, rfl⟩
abbrev main_call0_v32 : Ref sig .tc := ⟨.hbm, 49, rfl⟩
abbrev main_call0_c_7 : Ref sig .tc := ⟨.hbm, 50, rfl⟩
abbrev main_call0_v33 : Ref sig .tc := ⟨.hbm, 51, rfl⟩
abbrev main_call0_v34 : Ref sig .tc := ⟨.hbm, 52, rfl⟩
abbrev main_call0_v35 : Ref sig .tc := ⟨.hbm, 53, rfl⟩
abbrev main_call0_v36 : Ref sig .tc := ⟨.hbm, 54, rfl⟩
abbrev main_call0_v37 : Ref sig .tc := ⟨.hbm, 55, rfl⟩
abbrev main_call0_v38 : Ref sig .tc := ⟨.hbm, 56, rfl⟩
abbrev main_call0_v39 : Ref sig .tc := ⟨.hbm, 57, rfl⟩
abbrev main_call0_v40 : Ref sig .tc := ⟨.hbm, 58, rfl⟩
abbrev main_call0_v41 : Ref sig .tc := ⟨.hbm, 59, rfl⟩
abbrev main_call0_cst_8 : Ref sig .tc := ⟨.hbm, 60, rfl⟩
abbrev main_call0_v42 : Ref sig .tc := ⟨.hbm, 61, rfl⟩
abbrev main_call0_v43 : Ref sig .tc := ⟨.hbm, 62, rfl⟩
abbrev main_call0_v44 : Ref sig .tc := ⟨.hbm, 63, rfl⟩
abbrev main_call0_v45 : Ref sig .tc := ⟨.hbm, 64, rfl⟩
abbrev main_call0_v46 : Ref sig .tc := ⟨.hbm, 65, rfl⟩
abbrev main_call0_c_9 : Ref sig .tc := ⟨.hbm, 66, rfl⟩
abbrev main_call0_v47 : Ref sig .tc := ⟨.hbm, 67, rfl⟩
abbrev main_call0_v48 : Ref sig .tc := ⟨.hbm, 68, rfl⟩
abbrev main_call0_c_10 : Ref sig .tc := ⟨.hbm, 69, rfl⟩
abbrev main_call0_v49 : Ref sig .tc := ⟨.hbm, 70, rfl⟩
abbrev main_call0_v50 : Ref sig .tc := ⟨.hbm, 71, rfl⟩
abbrev main_call0_v51 : Ref sig .tc := ⟨.hbm, 72, rfl⟩
abbrev main_call0_v52 : Ref sig .tc := ⟨.hbm, 73, rfl⟩
abbrev main_call0_v53 : Ref sig .tc := ⟨.hbm, 74, rfl⟩
abbrev main_call0_v54 : Ref sig .tc := ⟨.hbm, 75, rfl⟩
abbrev main_call0_v55 : Ref sig .tc := ⟨.hbm, 76, rfl⟩
abbrev main_call0_v56 : Ref sig .tc := ⟨.hbm, 77, rfl⟩
abbrev main_call0_v57 : Ref sig .tc := ⟨.hbm, 78, rfl⟩
abbrev main_call0_cst_11 : Ref sig .tc := ⟨.hbm, 79, rfl⟩
abbrev main_call0_v58 : Ref sig .tc := ⟨.hbm, 80, rfl⟩
abbrev main_call0_v59 : Ref sig .tc := ⟨.hbm, 81, rfl⟩
abbrev main_call0_v60 : Ref sig .tc := ⟨.hbm, 82, rfl⟩
abbrev main_call0_v61 : Ref sig .tc := ⟨.hbm, 83, rfl⟩
abbrev main_call0_v62 : Ref sig .tc := ⟨.hbm, 84, rfl⟩
abbrev main_v0 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bitsLt_bf16_f32 : FTy.bits .bf16 < FTy.bits .f32
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  packedbf16_S10000x128_S10000x128_0_0 : (Rect.unit (s := S10000x128) ![0, 0] S10000x128.size inb_S10000x128_S10000x128_0_0).PackedRows (EltTy.packing .bf16)
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  packedbf16_S10000x64_S10000x64_0_0 : (Rect.unit (s := S10000x64) ![0, 0] S10000x64.size inb_S10000x64_S10000x64_0_0).PackedRows (EltTy.packing .bf16)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x128_S128x128_S10000x128_1_0_0_1_n_n_wf : DotDims.WF S10000x128 S128x128 S10000x128 [1] [0] [0] [1] [] []
  dot_S10000x128_S128x64_S10000x64_1_0_0_1_n_n_wf : DotDims.WF S10000x128 S128x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .bf16 = 32 ∨ (Rect.block (s := S100000x128) S10000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .bf16 = 32 ∨ (Rect.block (s := S100000x64) S10000x64.size (cc1_transform_3 i) (hinb1_3 i)).WholeWords (EltTy.packing .bf16)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_call0_v44) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v45) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v46) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 89
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x64, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x64, .f32⟩
  | .hbm, ⟨79, _⟩ => ⟨S1700000x1, .f32⟩
  | .hbm, ⟨80, _⟩ => ⟨S1700000x64, .f32⟩
  | .hbm, ⟨81, _⟩ => ⟨S1700000x64, .f32⟩
  | .hbm, ⟨82, _⟩ => ⟨S_, .f32⟩
  | .hbm, ⟨83, _⟩ => ⟨S100000x64, .f32⟩
  | .hbm, ⟨84, _⟩ => ⟨S1700000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.Spec.lean ====
/-
  The two dense layers of a two-layer graph convolution, as functions on the extended reals.

  Both programs compute, per layer, a dense product of the node features with a weight matrix, and between the
  layers add a row of biases and take the positive part. On the extended reals a change of float format is the
  identity, so the product of `x : [M, K]` with `w : [K, N]` is, at `(i, j)`, the sum over `k` of
  `x(i, k) · w(k, j)`, whatever format the operands were rounded to on the way in and the result on the way out,
  and whether the rows were produced all at once or ten thousand at a time: an entry of the product depends on
  one row of `x` only.
-/
import Idealize.ShloMosaic.PureOps.Ideal
import Idealize.ShloMosaic.Lib.ValueIdx

open scoped BigOperators

noncomputable section

namespace Cert.Gcn

open Idealize.ShloMosaic Idealize.ShloMosaic.ValueIdx

/-- The matrix product on the extended reals: at `(i, j)` the sum over `k` of `x(i, k) · w(k, j)`. -/
def mm {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem mm_apply {M K N : Nat} (x : (⟨2, ![M, K]⟩ : Shape).Idx → EReal) (w : (⟨2, ![K, N]⟩ : Shape).Idx → EReal)
    (i : Fin M) (j : Fin N) : mm x w (ix2 i j) = ∑ k : Fin K, x (ix2 i k) * w (ix2 k j) := rfl

/-- A row of biases `b : [1, K]` added to every row of `a : [M, K]`, then the positive part:
    at `(i, j)` the larger of `a(i, j) + b(0, j)` and `0`. -/
def biasRelu {M K : Nat} (a : (⟨2, ![M, K]⟩ : Shape).Idx → EReal) (b : (⟨2, ![1, K]⟩ : Shape).Idx → EReal) :
    (⟨2, ![M, K]⟩ : Shape).Idx → EReal :=
  fun i => max (a i + b (ix2 0 (i 1))) 0

theorem biasRelu_apply {M K : Nat} (a : (⟨2, ![M, K]⟩ : Shape).Idx → EReal) (b : (⟨2, ![1, K]⟩ : Shape).Idx → EReal)
    (i : Fin M) (j : Fin K) : biasRelu a b (ix2 i j) = max (a (ix2 i j) + b (ix2 0 j)) 0 := rfl

end Cert.Gcn

end
-- ==== Proof.HostFns.lean ====
/-
  The host-side steps of the two-layer graph convolution, each as one function of the arrays it reads.

  From the edge list `edge_index : [2, E]` both programs form the source and destination vectors with a self-loop
  appended per node (`srcF`, `dstF`: row 0, respectively row 1, followed by `0, 1, …, N − 1`), the in-degree of every node
  as a scatter-add of ones along the destinations (`deg`), its inverse square root where the degree is positive and
  zero elsewhere (`degInvSqrt`), and the weight of an edge as the product of that quantity at its two ends (`normE`).
  An index vector is normalised before it is used to gather: a negative entry has the node count added (`wrapIdx`).
  One aggregation step gathers the rows of a feature matrix at the sources, scales row `e` by the weight of edge `e`,
  and scatter-adds the rows into a zero matrix at the destinations (`agg128`, `agg64`: feature widths 128 and 64).
  The kernel's program stores the feature matrix in a narrower float format and widens the gathered rows again
  (`aggK128`, `aggK64`); on the extended reals the widening is the identity, so the two spellings are one function.
  The last step adds a row of biases to every row (`addBias64`).
  Every function is spelt as the operations compose in the printed programs, at any float instance.
-/
import proofs.«104999_j40484361732199_2_alg».proof.KernelIdeal
import Idealize.ShloMosaic.PureOps.Ideal

noncomputable section

namespace Cert.Gcn

open Idealize.ShloMosaic Cert.KernelIdeal Cert.KernelIdeal.Facts₀

variable {F : FTy → Type} [FloatOps F] [Cert.KernelIdeal.Facts₀]

/-- Row 0 of the edge list followed by `0, …, N − 1`: the source of every edge, self-loops included. -/
def srcF (ei : IVec S2x1600000 32) : IVec S1700000 32 :=
  concatenate S1700000 0 [⟨S1600000, shapeCast S1600000 (extractStridedSlice S1x1600000 ![0, 0] ei slices_S2x1600000_S1x1600000_0_0) shapeCasts_S1x1600000_S1600000⟩, ⟨S100000, iotaInDim S100000 32 0⟩] concatenates_S1600000_S100000_S1700000_d0

/-- Row 1 of the edge list followed by `0, …, N − 1`: the destination of every edge, self-loops included. -/
def dstF (ei : IVec S2x1600000 32) : IVec S1700000 32 :=
  concatenate S1700000 0 [⟨S1600000, shapeCast S1600000 (extractStridedSlice S1x1600000 ![1, 0] ei slices_S2x1600000_S1x1600000_1_0) shapeCasts_S1x1600000_S1600000⟩, ⟨S100000, iotaInDim S100000 32 0⟩] concatenates_S1600000_S100000_S1700000_d0

/-- An index vector made ready for a gather: a negative entry has the node count added; as a column. -/
def wrapIdx (s : IVec S1700000 32) : IVec S1700000x1 32 :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- The in-degree of every node, self-loop included: ones scatter-added along the destinations. -/
def deg (d : IVec S1700000 32) : FVec F S100000 .f32 :=
  Host.scatterAdd scatter_S100000_S1700000x1_S1700000_n_0_0_1
    (broadcastInDim S100000 ![] bcast_S_S100000 (constant S_ .f32 0x00000000#32))
    (broadcastInDim S1700000x1 ![0] bcast_S1700000_S1700000x1_0 d)
    (broadcastInDim S1700000 ![] bcast_S_S1700000 (constant S_ .f32 0x3F800000#32))

/-- The inverse square root of the degree where the degree is positive, zero elsewhere. -/
def degInvSqrt (d : IVec S1700000 32) : FVec F S100000 .f32 :=
  select (cmpf .ogt (deg (F := F) d) (broadcastInDim S100000 ![] bcast_S_S100000 (constant S_ .f32 0x00000000#32)))
    (Host.rsqrt (deg (F := F) d))
    (broadcastInDim S100000 ![] bcast_S_S100000 (id (constant S_ .f32 0x00000000#32)))

/-- The weight of every edge: the product of `degInvSqrt` at its source and at its destination. -/
def normE (s d : IVec S1700000 32) : FVec F S1700000 .f32 :=
  mulf (Host.gather gather_S100000_S1700000x1_S1700000_n_0_n_n_0_1_1 (degInvSqrt (F := F) d) (wrapIdx s))
    (Host.gather gather_S100000_S1700000x1_S1700000_n_0_n_n_0_1_1 (degInvSqrt (F := F) d) (wrapIdx d))

/-- One aggregation step at feature width 128: gather at the sources, scale by the edge weights, scatter-add at the
    destinations. -/
def agg128 (s d : IVec S1700000 32) (nrm : FVec F S1700000 .f32) (h : FVec F S100000x128 .f32) : FVec F S100000x128 .f32 :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 d)
    (mulf (Host.gather gather_S100000x128_S1700000x1_S1700000x128_1_0_n_n_0_1_1128 h (wrapIdx s))
      (broadcastInDim S1700000x128 ![0, 1] bcast_S1700000x1_S1700000x128_0_1 (broadcastInDim S1700000x1 ![0] bcast_S1700000_S1700000x1_0 nrm)))

/-- The same step on a feature matrix stored in the narrower format: the gathered rows are widened first. -/
def aggK128 (s d : IVec S1700000 32) (nrm : FVec F S1700000 .f32) (h : FVec F S100000x128 .bf16) : FVec F S100000x128 .f32 :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 d)
    (mulf (extf .f32 (Host.gather gather_S100000x128_S1700000x1_S1700000x128_1_0_n_n_0_1_1128 h (wrapIdx s)) bitsLt_bf16_f32)
      (broadcastInDim S1700000x128 ![0, 1] bcast_S1700000x1_S1700000x128_0_1 (broadcastInDim S1700000x1 ![0] bcast_S1700000_S1700000x1_0 nrm)))

/-- One aggregation step at feature width 64. -/
def agg64 (s d : IVec S1700000 32) (nrm : FVec F S1700000 .f32) (h : FVec F S100000x64 .f32) : FVec F S100000x64 .f32 :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 d)
    (mulf (Host.gather gather_S100000x64_S1700000x1_S1700000x64_1_0_n_n_0_1_164 h (wrapIdx s))
      (broadcastInDim S1700000x64 ![0, 1] bcast_S1700000x1_S1700000x64_0_1 (broadcastInDim S1700000x1 ![0] bcast_S1700000_S1700000x1_0 nrm)))

/-- The same step on a feature matrix stored in the narrower format. -/
def aggK64 (s d : IVec S1700000 32) (nrm : FVec F S1700000 .f32) (h : FVec F S100000x64 .bf16) : FVec F S100000x64 .f32 :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 d)
    (mulf (extf .f32 (Host.gather gather_S100000x64_S1700000x1_S1700000x64_1_0_n_n_0_1_164 h (wrapIdx s)) bitsLt_bf16_f32)
      (broadcastInDim S1700000x64 ![0, 1] bcast_S1700000x1_S1700000x64_0_1 (broadcastInDim S1700000x1 ![0] bcast_S1700000_S1700000x1_0 nrm)))

/-- A row of 64 biases added to every row. -/
def addBias64 (a : FVec F S100000x64 .f32) (b : FVec F S64 .f32) : FVec F S100000x64 .f32 :=
  addf a (broadcastInDim S100000x64 ![0, 1] bcast_S1x64_S100000x64_0_1 (broadcastInDim S1x64 ![1] bcast_S64_S1x64_1 b))

/-- On the extended reals the widening of the gathered rows is the identity: the two spellings of the step at width 128
    are one function. -/
theorem aggK128_eq (s d : IVec S1700000 32) (nrm : FVec Ideal S1700000 .f32) (h : FVec Ideal S100000x128 .bf16) :
    aggK128 (F := Ideal) s d nrm h = agg128 (F := Ideal) s d nrm h := rfl

/-- The same at width 64. -/
theorem aggK64_eq (s d : IVec S1700000 32) (nrm : FVec Ideal S1700000 .f32) (h : FVec Ideal S100000x64 .bf16) :
    aggK64 (F := Ideal) s d nrm h = agg64 (F := Ideal) s d nrm h := rfl

end Cert.Gcn

end
-- ==== Proof.Out.lean ====
/-
  The two-layer graph convolution as ONE function of its six arguments, on the extended reals.

  `out x ei w1 b1 w2 b2`: the node features times the first weight; aggregated along the edges (gather at the sources,
  scale by the edge weights, scatter-add at the destinations); the first bias added to every row and the positive part
  taken; times the second weight; aggregated again; the second bias added. The edge weights, and the source and
  destination vectors with their self-loops, are functions of the edge list alone.
-/
import proofs.«104999_j40484361732199_2_alg».proof.Proof.Gen.KernelIdeal
import proofs.«104999_j40484361732199_2_alg».proof.Proof.Spec
import proofs.«104999_j40484361732199_2_alg».proof.Proof.HostFns

noncomputable section

namespace Cert.Gcn

open Idealize.ShloMosaic Cert.KernelIdeal

/-- The result of the two layers, from the features `x`, the edge list `ei`, the weights `w1`, `w2` and the biases `b1`, `b2`. -/
def out (x : (⟨2, ![100000, 128]⟩ : Shape).Idx → EReal) (ei : IVec S2x1600000 32) (w1 : (⟨2, ![128, 128]⟩ : Shape).Idx → EReal)
    (b1 : FVec Ideal S128 .f32) (w2 : (⟨2, ![128, 64]⟩ : Shape).Idx → EReal) (b2 : FVec Ideal S64 .f32) : FVec Ideal S100000x64 .f32 :=
  addBias64 (F := Ideal)
    (agg64 (F := Ideal) (srcF ei) (dstF ei) (normE (F := Ideal) (srcF ei) (dstF ei))
      (mm (M := 100000) (K := 128) (N := 64)
        (biasRelu (M := 100000) (K := 128)
          (agg128 (F := Ideal) (srcF ei) (dstF ei) (normE (F := Ideal) (srcF ei) (dstF ei))
            (mm (M := 100000) (K := 128) (N := 128) x w1))
          (shapeCast S1x128 b1 Cert.KernelIdeal.Gen.shapeCasts_S128_S1x128))
        w2))
    b2

end Cert.Gcn

end
-- ==== Proof.KernelRun.lean ====
/-
  The idealized kernel's run, with its result named.

  @main is five segments: the host operations up to the first dense product, the first product (a pipeline of ten
  row blocks), the host operations between the two products, the second product, and the host operations after it.
  The buffer contents at each boundary are a fold from the launch memory; every weakly fair execution ends with every
  buffer that outlives the call at the last boundary's contents. Read there: the six argument arrays are as launched,
  and the result array holds the last boundary's contents at the result buffer.
-/
import proofs.«104999_j40484361732199_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents and the argument arrays as launched. -/
theorem run : θ_run defs (onTc (τ := τ) (main (F := F))) ⟨m, fun _ => 0, ρ⟩ (fun r => ∀ c : Dev nD,
      r.2.mem ((c.tc : Thread nD τ).loc main_v0) = W5 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v0 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.RunValue

end
-- ==== Proof.KHost.lean ====
/-
  What the idealized kernel's three stretches of host operations write, each buffer as one function of the buffers
  the stretch reads, from ANY contents `W` of the buffers at the stretch's start.

  Before the first dense product: the source and destination vectors, from the edge list (the edge weights are read in a
  module of their own: their term is the longest).
  Between the two products: one aggregation step at width 128 of the first product's rows, and the first layer's bias
  as a row `[1, 128]`. After the second product: one aggregation step at width 64 of the second product's rows, and the
  second layer's bias added. A buffer a stretch does not write keeps its contents across the stretch.
-/
import proofs.«104999_j40484361732199_2_alg».proof.Proof.Gen.KernelIdeal.Frame
import proofs.«104999_j40484361732199_2_alg».proof.Proof.HostFns

set_option maxRecDepth 16384

noncomputable section

namespace Cert.KernelIdeal.HostRead

open Idealize.ShloMosaic Idealize.ShloMosaic.TcCoe Idealize.SL.Sem Cert.KernelIdeal Cert.KernelIdeal.Gen

variable {F : FTy → Type} [FloatOps F]

/-- A buffer no operation of a stretch writes holds after the stretch what it held before: every operation's written
    reference differs from it. -/
macro "not_written" : tactic => `(tactic| (
  refine StableHlo.after_of_forall_not_mem _ _ (List.forall_iff_forall_mem.mp ?_)
  simp only [hostOps0, hostOps1, hostOps2, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## Before the first product -/

/-- The source vector: row 0 of the edge list, then the self-loops. -/
theorem s0_src (W : Valuation τ sig (Elt F)) :
    StableHlo.after (hostOps0 (F := F)) W (Proc.devRef .tc main_call0_v5) = Cert.Gcn.srcF (W (Proc.devRef .tc main_arg1)) := by
  after_results_simp <;> rfl

/-- The destination vector: row 1 of the edge list, then the self-loops. -/
theorem s0_dst (W : Valuation τ sig (Elt F)) :
    StableHlo.after (hostOps0 (F := F)) W (Proc.devRef .tc main_call0_v6) = Cert.Gcn.dstF (W (Proc.devRef .tc main_arg1)) := by
  after_results_simp <;> rfl

theorem s0_keep_x (W : Valuation τ sig (Elt F)) :
    StableHlo.after (hostOps0 (F := F)) W (Proc.devRef .tc main_arg0) = W (Proc.devRef .tc main_arg0) := by not_written
theorem s0_keep_w1 (W : Valuation τ sig (Elt F)) :
    StableHlo.after (hostOps0 (F := F)) W (Proc.devRef .tc main_arg2) = W (Proc.devRef .tc main_arg2) := by not_written
theorem s0_keep_b1 (W : Valuation τ sig (Elt F)) :
    StableHlo.after (hostOps0 (F := F)) W (Proc.devRef .tc main_arg3) = W (Proc.devRef .tc main_arg3) := by not_written
theorem s0_keep_w2 (W : Valuation τ sig (Elt F)) :
    StableHlo.after (hostOps0 (F := F)) W (Proc.devRef .tc main_arg4) = W (Proc.devRef .tc main_arg4) := by not_written
theorem s0_keep_b2 (W : Valuation τ sig (Elt F)) :
    StableHlo.after (hostOps0 (F := F)) W (Proc.devRef .tc main_arg5) = W (Proc.devRef .tc main_arg5) := by not_written

/-! ## Between the two products -/

/-- The aggregated first layer: the first product's rows gathered at the sources, scaled by the edge weights and
    scatter-added at the destinations. -/
theorem s1_agg (W : Valuation τ sig (Elt F)) :
    StableHlo.after (hostOps1 (F := F)) W (Proc.devRef .tc main_call0_v44)
      = Cert.Gcn.aggK128 (F := F) (W (Proc.devRef .tc main_call0_v5)) (W (Proc.devRef .tc main_call0_v6))
          (W (Proc.devRef .tc main_call0_v29)) (W (Proc.devRef .tc main_call0_v30)) := by
  after_results_simp <;> rfl

/-- The first layer's bias as a row. -/
theorem s1_bias (W : Valuation τ sig (Elt F)) :
    StableHlo.after (hostOps1 (F := F)) W (Proc.devRef .tc main_call0_v45)
      = shapeCast S1x128 (W (Proc.devRef .tc main_arg3)) Gen.shapeCasts_S128_S1x128 := by
  after_results_simp <;> rfl

theorem s1_keep_src (W : Valuation τ sig (Elt F)) :
    StableHlo.after (hostOps1 (F := F)) W (Proc.devRef .tc main_call0_v5) = W (Proc.devRef .tc main_call0_v5) := by not_written
theorem s1_keep_dst (W : Valuation τ sig (Elt F)) :
    StableHlo.after (hostOps1 (F := F)) W (Proc.devRef .tc main_call0_v6) = W (Proc.devRef .tc main_call0_v6) := by not_written
theorem s1_keep_norm (W : Valuation τ sig (Elt F)) :
    StableHlo.after (hostOps1 (F := F)) W (Proc.devRef .tc main_call0_v29) = W (Proc.devRef .tc main_call0_v29) := by not_written
theorem s1_keep_w2 (W : Valuation τ sig (Elt F)) :
    StableHlo.after (hostOps1 (F := F)) W (Proc.devRef .tc main_arg4) = W (Proc.devRef .tc main_arg4) := by not_written
theorem s1_keep_b2 (W : Valuation τ sig (Elt F)) :
    StableHlo.after (hostOps1 (F := F)) W (Proc.devRef .tc main_arg5) = W (Proc.devRef .tc main_arg5) := by not_written

/-! ## After the second product -/

/-- The result: the second product's rows aggregated at width 64, the second layer's bias added to every row. -/
theorem s2_out (W : Valuation τ sig (Elt F)) :
    StableHlo.after (hostOps2 (F := F)) W (Proc.devRef .tc main_v0)
      = Cert.Gcn.addBias64 (F := F)
          (Cert.Gcn.aggK64 (F := F) (W (Proc.devRef .tc main_call0_v5)) (W (Proc.devRef .tc main_call0_v6))
            (W (Proc.devRef .tc main_call0_v29)) (W (Proc.devRef .tc main_call0_v46)))
          (W (Proc.devRef .tc main_arg5)) := by
  after_results_simp <;> rfl

end Cert.KernelIdeal.HostRead

end
-- ==== Proof.KHostNorm.lean ====
/-
  The edge weights the idealized kernel's first stretch of host operations writes, from ANY contents `W` of the buffers
  at its start: the inverse square root of the in-degree at an edge's source times that at its destination, the degree a
  scatter-add of ones along the destinations (self-loops included), both index vectors read off the edge list.
  The term is the stretch's longest: the degree vector is read four times.
-/
import proofs.«104999_j40484361732199_2_alg».proof.Proof.Gen.KernelIdeal.Frame
import proofs.«104999_j40484361732199_2_alg».proof.Proof.HostFns

set_option maxRecDepth 16384

noncomputable section

namespace Cert.KernelIdeal.HostRead

open Idealize.ShloMosaic Idealize.ShloMosaic.TcCoe Idealize.SL.Sem Cert.KernelIdeal Cert.KernelIdeal.Gen

variable {F : FTy → Type} [FloatOps F]

set_option maxHeartbeats 4000000 in
/-- The edge weights: the inverse square root of the in-degree at the source times that at the destination. -/
theorem s0_norm (W : Valuation τ sig (Elt F)) :
    StableHlo.after (hostOps0 (F := F)) W (Proc.devRef .tc main_call0_v29)
      = Cert.Gcn.normE (F := F) (Cert.Gcn.srcF (W (Proc.devRef .tc main_arg1))) (Cert.Gcn.dstF (W (Proc.devRef .tc main_arg1))) := by
  unfold Cert.Gcn.normE Cert.Gcn.degInvSqrt Cert.Gcn.deg Cert.Gcn.wrapIdx Cert.Gcn.srcF Cert.Gcn.dstF
  after_results_simp <;> rfl

end Cert.KernelIdeal.HostRead

end
-- ==== Proof.LibMatmul.lean ====
/-
  A plain matrix product and a two-axis transpose, read at an index.

  For `l : [M, K]` and `r : [K, N]` the contraction with dimension numbers "contract axis 1 of the left operand with
  axis 0 of the right one, no batch axis" has at `(i, j)`, at the ideal values, the sum over `k` of `l(i, k) · r(k, j)`:
  for the matrix unit's product into the zero accumulator and for the host's general dot alike. The contraction's own
  index set has one axis of extent `K`; the sum is re-indexed through the bijection with `Fin K`, and the two operand
  indices at `(i, j)` and `k` are `(i, k)` and `(k, j)` coordinate by coordinate.
  The transpose with permutation `[1, 0]` of `x : [A, B]` has at `(b, a)` the element `x(a, b)`.
-/
import Idealize.ShloMosaic.PureOps.Ideal.Laws
import Idealize.ShloMosaic.Lib.ValueIdx
import Idealize.ShloMosaic.Lib.Pipeline.Value
open scoped BigOperators
noncomputable section
namespace Cert.MatOps
open Idealize.ShloMosaic Idealize.ShloMosaic.ValueIdx

section Plain
variable {M K N : Nat}

/-- The contraction index set of the plain product is `Fin K`. -/
abbrev plainContr (M K N : Nat) : (DotDims.plain M K N).contr.Idx ≃ Fin K :=
  contrEquiv1 (DotDims.plain M K N) K rfl rfl

/-- The left operand's index at output `(i, j)` and contraction coordinate `k` is `(i, k)`. -/
theorem plain_lhsIdx (i : Fin M) (j : Fin N) (k : Fin K) :
    (DotDims.plain M K N).lhsIdx (ix2 i j) ((plainContr M K N).symm k) = ix2 i k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 i j) _).trans hk

/-- The right operand's index at output `(i, j)` and contraction coordinate `k` is `(k, j)`. -/
theorem plain_rhsIdx (i : Fin M) (j : Fin N) (k : Fin K) :
    (DotDims.plain M K N).rhsIdx (ix2 i j) ((plainContr M K N).symm k) = ix2 k j := by
  have hk := contrEquiv1_symm_val (DotDims.plain M K N) K rfl rfl k
  funext a
  refine Fin.ext ?_
  match a with
  | ⟨0, _⟩ => exact ((DotDims.plain M K N).rhsIdx_val_of_single rfl (ix2 i j) _).trans hk
  | ⟨1, _⟩ => rfl

/-- The contraction's sum over its own index set is the sum over `k : Fin K` of the products at `(i, k)`, `(k, j)`. -/
theorem plain_sum (l : (⟨2, ![M, K]⟩ : Shape).Idx → EReal) (r : (⟨2, ![K, N]⟩ : Shape).Idx → EReal) (i : Fin M) (j : Fin N) :
    ∑ q : (DotDims.plain M K N).contr.Idx, l ((DotDims.plain M K N).lhsIdx (ix2 i j) q) * r ((DotDims.plain M K N).rhsIdx (ix2 i j) q)
      = ∑ k : Fin K, l (ix2 i k) * r (ix2 k j) := by
  rw [← Equiv.sum_comp (plainContr M K N).symm]
  refine Finset.sum_congr rfl fun k _ => ?_
  rw [plain_lhsIdx, plain_rhsIdx]

end Plain

theorem matmul_plain_zero_apply {M K N : Nat} {φ₁ φ₂ : FTy} (prec : Option ContractPrecision) (l : FVec Ideal ⟨2, ![M, K]⟩ φ₁) (r : FVec Ideal ⟨2, ![K, N]⟩ φ₂) (i : Fin M) (j : Fin N) :
    matmul (F := Ideal) (DotDims.plain M K N) prec l r (constant ⟨2, ![M, N]⟩ .f32 0x00000000#32) (ix2 i j) = ∑ k : Fin K, l (ix2 i k) * r (ix2 k j) := by
  simp only [matmul]
  rw [Ideal.matmul_constant_zero_apply]
  exact plain_sum l r i j

theorem dotGeneral_plain_apply {M K N : Nat} {φ₁ φ₂ : FTy} (prec : Option ContractPrecision) (l : FVec Ideal ⟨2, ![M, K]⟩ φ₁) (r : FVec Ideal ⟨2, ![K, N]⟩ φ₂) (i : Fin M) (j : Fin N) :
    Host.dotGeneral (F := Ideal) (DotDims.plain M K N) prec l r (ix2 i j) = ∑ k : Fin K, l (ix2 i k) * r (ix2 k j) := by
  simp only [Host.dotGeneral]
  rw [Ideal.dotGeneral_apply]
  exact plain_sum l r i j

theorem transpose10_apply {α : Type} {A B : Nat} (x : (⟨2, ![A, B]⟩ : Shape).Idx → α) (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun c => match c with
    | ⟨0, _⟩ => rfl
    | ⟨1, _⟩ => rfl)
end Cert.MatOps
-- ==== Proof.Region0.lean ====
/-
  The first dense layer as one array: after its ten grid points have written back, the output array of the first
  layer's kernel holds the matrix product of the node features with the first weight matrix.

  The output `[100000, 128]` is cut into ten blocks of ten thousand rows. At grid point `t` the body sees rows
  `10000·t … 10000·t + 9999` of the features `x : [100000, 128]` and the whole weight matrix `w : [128, 128]`, and
  stores their product. On the extended reals a change of float format is the identity and the product into the zero
  accumulator is the plain sum, so entry `(p, q)` of the stored block is `∑ k, x(10000·t + p, k) · w(k, q)`: exactly
  entry `(10000·t + p, q)` of the product of the whole arrays, because an entry of a product depends on one row of the
  left factor only. Every row `r` of the output lies in the block of point `r / 10000`, so the ten blocks cover the
  array and it ends holding the whole product.
-/
import proofs.«104999_j40484361732199_2_alg».proof.Proof.Gen.KernelIdeal.Frame
import proofs.«104999_j40484361732199_2_alg».proof.Proof.Spec
import proofs.«104999_j40484361732199_2_alg».proof.Proof.LibMatmul

open scoped BigOperators

noncomputable section

open Idealize.ShloMosaic Idealize.ShloMosaic.TcCoe Idealize.SL.Sem Cert.KernelIdeal Cert.KernelIdeal.Gen
open Idealize.ShloMosaic.ValueIdx

namespace Cert.KernelIdeal.Region0

/-! ## One block: the product of a block of rows with the weight matrix -/

/-- The body's contraction is the plain one: axis 1 of the left operand against axis 0 of the right, no batch axis. -/
theorem dot_plain : dot_S10000x128_S128x128_S10000x128_1_0_0_1_n_n = DotDims.plain 10000 128 128 := rfl

/-- What the body stores, at `(p, q)`: the sum over `k` of `x0(p, k) · x1(k, q)`. The three changes of float format
    are the identity on the extended reals, and the product is accumulated into zero. -/
theorem pay_apply (x0 : Vec Ideal S10000x128 .f32) (x1 : Vec Ideal S128x128 .f32) (p : Fin 10000) (q : Fin 128) :
    k0_pay1 (F := Ideal) x0 x1 (ix2 p q) = ∑ k : Fin 128, x0 (ix2 p k) * x1 (ix2 k q) := by
  unfold k0_pay1
  rw [truncf_apply, dot_plain]
  exact Cert.MatOps.matmul_plain_zero_apply none _ _ p q

/-- If row `p` of the block `x0` is row `i` of the array `A0`, and column `q` of `x1` is column `q` of `A1`, then the
    stored entry `(p, q)` is entry `(i, q)` of the product of the whole arrays: only row `i` of `A0` enters it. -/
theorem block_sum (x0 : Vec Ideal S10000x128 .f32) (x1 : Vec Ideal S128x128 .f32)
    (A0 : S100000x128.Idx → EReal) (A1 : S128x128.Idx → EReal) (i : Fin 100000) (p : Fin 10000) (q : Fin 128)
    (h0 : ∀ k : Fin 128, x0 (ix2 p k) = A0 (ix2 i k)) (h1 : ∀ k : Fin 128, x1 (ix2 k q) = A1 (ix2 k q)) :
    k0_pay1 (F := Ideal) x0 x1 (ix2 p q) = Cert.Gcn.mm (M := 100000) (K := 128) (N := 128) A0 A1 (ix2 i q) := by
  rw [pay_apply, Cert.Gcn.mm_apply]
  exact Finset.sum_congr rfl fun k _ => by rw [h0 k, h1 k]

/-! ## Where the blocks sit -/

theorem hz : (![0, 0] : Fin 2 → Nat) = fun _ => 0 := funext fun a => by fin_cases a <;> rfl

/-- The block indices at point `t`: the features' and the output's blocks are block `(t, 0)`, the weights' block is
    always block `(0, 0)`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-! ## What a point writes back -/

/-- What point `t` writes back is block `t` of the product of the whole arrays. An element of a block sits in its
    array, on each axis, at the block index times the block size plus its coordinate inside the block: row `p` of the
    features' block and of the output's block is row `10000·t + p` of the array, the columns are the array's, and
    the weights' block is the weight matrix. -/
theorem flushed_eq (c : Dev nD) (t : Fin cfg0.N) :
    (dat0 (F := Ideal) V c).flushed 2 t
      = ((cfg0.win 2).blk t).view.read (Elt Ideal)
          (Cert.Gcn.mm (M := 100000) (K := 128) (N := 128) (V c main_arg0) (V c main_arg2)) := by
  show (cfg0.win 2).cut (grid0.coords t) ((dat0 (F := Ideal) V c).after 2 t) = _
  rw [after0_2]
  unfold out0_2
  rw [View.canon_unit_zero hz]
  simp only [View.ld_unit_zero (S := S10000x128) hz, View.ld_unit_zero (S := S128x128) hz]
  obtain ⟨e00, e01, e10, e11, e20, e21⟩ := idx_facts t
  have hN : grid0.N = 10 := N_0
  have ht : t.val < 10 := hN ▸ t.isLt
  funext j
  obtain ⟨p, q, rfl⟩ : ∃ (p : Fin 10000) (q : Fin 128), j = ix2 p q := ⟨j 0, j 1, eq_ix2 j⟩
  show k0_pay1 (F := Ideal) (iblk0 V c 0 t) (iblk0 V c 1 t) (ix2 p q)
    = Cert.Gcn.mm (M := 100000) (K := 128) (N := 128) (V c main_arg0) (V c main_arg2)
        (((cfg0.win 2).blk t).view.emb (ix2 p q))
  refine (block_sum (iblk0 V c 0 t) (iblk0 V c 1 t) (V c main_arg0) (V c main_arg2)
    ⟨10000 * t.val + p.val, by have := p.isLt; omega⟩ p q (fun k => ?_) (fun k => ?_)).trans ?_
  · -- row `p` of the features' block is row `10000·t + p` of the features
    show V c main_arg0 (((cfg0.win 0).blk t).view.emb (ix2 p k)) = _
    refine congrArg (V c main_arg0 : S100000x128.Idx → EReal) (funext fun a => Fin.ext ?_)
    match a with
    | ⟨0, _⟩ => show win0_0.index t (0 : Fin 2) * 10000 + 1 * p.val = 10000 * t.val + p.val; omega
    | ⟨1, _⟩ => show win0_0.index t (1 : Fin 2) * 128 + 1 * k.val = k.val; omega
  · -- the weights' block is the weight matrix
    show V c main_arg2 (((cfg0.win 1).blk t).view.emb (ix2 k q)) = _
    refine congrArg (V c main_arg2 : S128x128.Idx → EReal) (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega
  · -- entry `(p, q)` of the output's block is entry `(10000·t + p, q)` of the output
    refine congrArg (Cert.Gcn.mm (M := 100000) (K := 128) (N := 128) (V c main_arg0) (V c main_arg2))
      (funext fun a => Fin.ext ?_)
    match a with
    | ⟨0, _⟩ => show 10000 * t.val + p.val = win0_2.index t (0 : Fin 2) * 10000 + 1 * p.val; omega
    | ⟨1, _⟩ => show q.val = win0_2.index t (1 : Fin 2) * 128 + 1 * q.val; omega

/-! ## The ten blocks cover the array -/

/-- An entry of the output is in point `t`'s block iff each of its coordinates is in the block's range on that axis. -/
theorem mem_blk (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_call0_v30).slice (win0_2.rect t)).set ↔ _
  rw [View.set_slice_whole, Rect.mem_set_unit]
  exact Iff.rfl

/-- Row `r` of the output is in the block of point `r / 10000`, and every point writes its block back. -/
theorem cover (i : S100000x128.Idx) :
    ∃ t : Fin cfg0.N, (cfg0.win 2).flush t = true ∧ i ∈ ((cfg0.win 2).blk t).view.set := by
  have hN : grid0.N = 10 := N_0
  have hi0 : (i 0).val < 100000 := (i 0).isLt
  have hi1 : (i 1).val < 128 := (i 1).isLt
  have hlt : (i 0).val / 10000 < grid0.N := by rw [hN]; omega
  obtain ⟨-, -, -, -, e20, e21⟩ := idx_facts ⟨(i 0).val / 10000, hlt⟩
  refine ⟨⟨(i 0).val / 10000, hlt⟩, flush0_2 _, ?_⟩
  rw [mem_blk]
  intro a
  match a with
  | ⟨0, _⟩ =>
    show win0_2.index ⟨(i 0).val / 10000, hlt⟩ (0 : Fin 2) * 10000 ≤ (i 0).val
      ∧ (i 0).val < win0_2.index ⟨(i 0).val / 10000, hlt⟩ (0 : Fin 2) * 10000 + 10000
    rw [e20]
    show (i 0).val / 10000 * 10000 ≤ (i 0).val ∧ (i 0).val < (i 0).val / 10000 * 10000 + 10000
    omega
  | ⟨1, _⟩ =>
    show win0_2.index ⟨(i 0).val / 10000, hlt⟩ (1 : Fin 2) * 128 ≤ (i 1).val
      ∧ (i 1).val < win0_2.index ⟨(i 0).val / 10000, hlt⟩ (1 : Fin 2) * 128 + 128
    rw [e21]
    omega

/-! ## The array -/

/-- After the ten points have written back, the output array holds, at `(i, j)`, the sum over `k` of
    `x(i, k) · w(k, j)`, for the features `x` and the weights `w` as the region found them. -/
theorem arr (V : (c : Dev nD) → (b : Ref sig .tc) → Buf (Elt Ideal) ((c : Thread nD τ).loc b)) (c : Dev nD) :
    (dat0 (F := Ideal) V c).arrAt 2 cfg0.N
      = Cert.Gcn.mm (M := 100000) (K := 128) (N := 128) (V c main_arg0) (V c main_arg2) :=
  (dat0 (F := Ideal) V c).arrAt_eq_of_cover 2 _ (fun t _ => flushed_eq V c t) cover

end Cert.KernelIdeal.Region0

end
-- ==== Proof.Region1.lean ====
/-
  The second dense layer's output array, as one function of the three arrays the region finds on entry.

  The pipeline has ten points. Point `t` is handed rows `10000·t … 10000·t + 9999` of `a : [100000, 128]`, the one
  row of biases `b : [1, 128]` and the whole weight `w : [128, 64]` (the same block at every point), and writes
  back rows `10000·t … 10000·t + 9999` of the output `[100000, 64]`. On the extended reals a change of float format
  is the identity and a matrix-unit product into the zero accumulator is the plain sum, so what a point computes at
  `(p, q)` of its block is `∑ k, max (x(p, k) + bias(0, k)) 0 · w(k, q)`: an entry of the product depends on ONE row
  of `a`, so the point's block is the restriction to its rows of the whole-array function
  `(i, j) ↦ ∑ k, max (a(i, k) + b(0, k)) 0 · w(k, j)`. The ten row blocks tile the output (row `r` lies in block
  `r / 10000`), so after the last write-back the array is that function.

  Everything is stated at a parameter `V`, the buffer contents when the region is entered; nothing here looks
  inside `V`.
-/
import proofs.«104999_j40484361732199_2_alg».proof.Proof.Gen.KernelIdeal.Frame
import proofs.«104999_j40484361732199_2_alg».proof.Proof.Spec
import proofs.«104999_j40484361732199_2_alg».proof.Proof.LibMatmul
import Idealize.ShloMosaic.Lib.ValueLayout

open scoped BigOperators
noncomputable section
open Idealize.ShloMosaic Idealize.ShloMosaic.TcCoe Idealize.SL.Sem Cert.KernelIdeal Cert.KernelIdeal.Gen
open Idealize.ShloMosaic.ValueIdx

namespace Cert.KernelIdeal.Region1

/-! ## One block: the body's arithmetic at an index -/

/-- The product's dimension numbers (contract axis 1 of the left operand with axis 0 of the right one, no batch
    axis) are those of the plain product of a `[10000, 128]` by a `[128, 64]` matrix: the same fields. -/
theorem contraction_is_plain : dot_S10000x128_S128x64_S10000x64_1_0_0_1_n_n = DotDims.plain 10000 128 64 := rfl

/-- What the body stores, at `(p, q)` of the block: the sum over `k` of the positive part of
    `x0(p, k) + x1(0, k)` times `x2(k, q)`. The two shape casts are between equal shapes, the bias row is repeated
    down the rows, the roundings to the narrower format and back are the identity on the extended reals, the
    accumulator the product starts from is zero, and the constant the maximum is taken against is the number `0`. -/
theorem payload_apply (x0 : Vec Ideal S10000x128 .f32) (x1 : Vec Ideal S1x128 .f32) (x2 : Vec Ideal S128x64 .f32)
    (p : Fin 10000) (q : Fin 64) :
    k1_pay1 x0 x1 x2 (ix2 p q) = ∑ k : Fin 128, max (x0 (ix2 p k) + x1 (ix2 0 k)) 0 * x2 (ix2 k q) := by
  unfold k1_pay1
  rw [truncf_apply, contraction_is_plain]
  refine (Cert.MatOps.matmul_plain_zero_apply none _ _ p q).trans ?_
  refine Finset.sum_congr rfl fun k _ => ?_
  rw [truncf_apply, truncf_apply, maximumf_apply, addf_apply, broadcast_apply, shapeCast_self, shapeCast_self,
    broadcastTo_1b_ab_apply]
  show max _ (Ideal.ofBits .f32 0x00000000#32) * _ = _
  rw [Ideal.ofBits_zero_f32]

/-! ## The whole array -/

/-- The layer on whole arrays: at `(i, j)` the sum over `k` of `max (a(i, k) + b(0, k)) 0 · w(k, j)`. -/
abbrev dense2 (a : S100000x128.Idx → EReal) (b : S1x128.Idx → EReal) (w : S128x64.Idx → EReal) :
    S100000x64.Idx → EReal :=
  Cert.Gcn.mm (M := 100000) (K := 128) (N := 64) (Cert.Gcn.biasRelu (M := 100000) (K := 128) a b) w

/-- If a block `x0` holds rows `10000·T …` of `a`, and `x1`, `x2` are `b` and `w`, then what the body stores at `j` is
    the layer at the array index `i` that sits `10000·T` rows further down in the same column: the entry uses row
    `i 0` of `a` only, and that row is row `j 0` of the block. -/
theorem payload_is_rows_of_dense2 (a : S100000x128.Idx → EReal) (b : S1x128.Idx → EReal) (w : S128x64.Idx → EReal)
    (x0 : Vec Ideal S10000x128 .f32) (x1 : Vec Ideal S1x128 .f32) (x2 : Vec Ideal S128x64 .f32) (T : Nat)
    (h0 : ∀ (y : S10000x128.Idx) (i : S100000x128.Idx),
      (i 0).val = T * 10000 + (y 0).val → (i 1).val = (y 1).val → x0 y = a i)
    (h1 : x1 = b) (h2 : x2 = w)
    (j : S10000x64.Idx) (i : S100000x64.Idx)
    (hi0 : (i 0).val = T * 10000 + (j 0).val) (hi1 : (i 1).val = (j 1).val) :
    k1_pay1 x0 x1 x2 j = dense2 a b w i := by
  obtain ⟨p, q, rfl⟩ : ∃ (p : Fin 10000) (q : Fin 64), j = ix2 p q := ⟨j 0, j 1, eq_ix2 j⟩
  obtain ⟨r, s, rfl⟩ : ∃ (r : Fin 100000) (s : Fin 64), i = ix2 r s := ⟨i 0, i 1, eq_ix2 i⟩
  rw [payload_apply]
  have hs : s = q := Fin.ext hi1
  subst hs
  subst h1 h2
  show _ = ∑ k : Fin 128, max (a (ix2 r k) + x1 (ix2 0 k)) 0 * x2 (ix2 k s)
  refine Finset.sum_congr rfl fun k _ => ?_
  rw [h0 (ix2 p k) (ix2 r k) hi0 rfl]

/-! ## Which block each window hands to a point -/

theorem zero_offsets : (![0, 0] : Fin 2 → Nat) = fun _ => 0 := funext fun a => by fin_cases a <;> rfl

/-- The four index maps over the ten points: the row windows (input 0 and the output) are at block `(t, 0)`, the
    bias row and the weight at block `(0, 0)` whatever the point. Decided by running the maps on the grid. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

section
variable (V : (c : Dev nD) → (b : Ref sig .tc) → Buf (Elt Ideal) ((c : Thread nD τ).loc b))

/-- Input window 0's block at point `t` is rows `10000·t … 10000·t + 9999` of the array: an element of a block sits
    in the array, on each axis, at the block index times the block's extent plus its coordinate inside the block. -/
theorem rows_block (c : Dev nD) (t : Fin cfg1.N) (y : S10000x128.Idx) (i : S100000x128.Idx)
    (h0 : (i 0).val = t.val * 10000 + (y 0).val) (h1 : (i 1).val = (y 1).val) :
    (iblk1 V c 0 t : Vec Ideal S10000x128 .f32) y = (V c main_call0_v44 : S100000x128.Idx → EReal) i := by
  obtain ⟨e00, e01, -⟩ := block_indices t
  unfold iblk1
  rw [View.read_apply]
  show V c main_call0_v44 _ = V c main_call0_v44 _
  congr 1
  funext a; apply Fin.ext
  match a with
  | ⟨0, _⟩ => show win1_0.index t (0 : Fin 2) * 10000 + 1 * (y 0).val = (i 0).val; omega
  | ⟨1, _⟩ => show win1_0.index t (1 : Fin 2) * 128 + 1 * (y 1).val = (i 1).val; omega

/-- The bias window has one block, the whole row, at every point. -/
theorem bias_block (c : Dev nD) (t : Fin cfg1.N) :
    (iblk1 V c 1 t : Vec Ideal S1x128 .f32) = (V c main_call0_v45 : S1x128.Idx → EReal) := by
  obtain ⟨-, -, e10, e11, -⟩ := block_indices t
  unfold iblk1
  funext y
  rw [View.read_apply]
  show V c main_call0_v45 _ = V c main_call0_v45 y
  congr 1
  funext a; apply Fin.ext
  match a with
  | ⟨0, _⟩ => show win1_1.index t (0 : Fin 2) * 1 + 1 * (y 0).val = (y 0).val; omega
  | ⟨1, _⟩ => show win1_1.index t (1 : Fin 2) * 128 + 1 * (y 1).val = (y 1).val; omega

/-- The weight window has one block, the whole matrix, at every point. -/
theorem weight_block (c : Dev nD) (t : Fin cfg1.N) :
    (iblk1 V c 2 t : Vec Ideal S128x64 .f32) = (V c main_arg4 : S128x64.Idx → EReal) := by
  obtain ⟨-, -, -, -, e20, e21, -⟩ := block_indices t
  unfold iblk1
  funext y
  rw [View.read_apply]
  show V c main_arg4 _ = V c main_arg4 y
  congr 1
  funext a; apply Fin.ext
  match a with
  | ⟨0, _⟩ => show win1_2.index t (0 : Fin 2) * 128 + 1 * (y 0).val = (y 0).val; omega
  | ⟨1, _⟩ => show win1_2.index t (1 : Fin 2) * 64 + 1 * (y 1).val = (y 1).val; omega

/-! ## What a point writes back -/

/-- Point `t` writes back block `t` of the layer of the entry contents: the body's one store covers its whole
    buffer and its loads read whole buffers, so the buffer holds the payload of the three input blocks, and the
    output's block sits at the same rows, `10000·t …`, as input window 0's. -/
theorem written_back (c : Dev nD) (t : Fin cfg1.N) :
    (dat1 (F := Ideal) V c).flushed 3 t
      = ((cfg1.win 3).blk t).view.read (Elt Ideal)
          (dense2 (V c main_call0_v44) (V c main_call0_v45) (V c main_arg4)) := by
  show (cfg1.win 3).cut (grid1.coords t) ((dat1 V c).after 3 t) = _
  rw [after1_3]
  unfold out1_3
  rw [View.canon_unit_zero zero_offsets]
  simp only [View.ld_unit_zero (S := S10000x128) zero_offsets, View.ld_unit_zero (S := S1x128) zero_offsets,
    View.ld_unit_zero (S := S128x64) zero_offsets]
  funext j
  rw [View.read_apply]
  obtain ⟨-, -, -, -, -, -, e30, e31⟩ := block_indices t
  refine payload_is_rows_of_dense2 (V c main_call0_v44) (V c main_call0_v45) (V c main_arg4)
    (iblk1 V c 0 t) (iblk1 V c 1 t) (iblk1 V c 2 t) t.val
    (rows_block V c t) (bias_block V c t) (weight_block V c t) _ _ ?_ ?_
  · show win1_3.index t (0 : Fin 2) * 10000 + 1 * (j 0).val = t.val * 10000 + (j 0).val
    omega
  · show win1_3.index t (1 : Fin 2) * 64 + 1 * (j 1).val = (j 1).val
    omega

end

/-! ## The ten row blocks tile the output -/

/-- An index of the output is in point `t`'s block iff each coordinate is in the block's range on its axis. -/
theorem mem_row_block (t : Fin cfg1.N) (i : S100000x64.Idx) :
    i ∈ ((cfg1.win 3).blk t).view.set ↔ ∀ a : Fin 2, win1_3.index t a * S10000x64.size a ≤ (i a).val
      ∧ (i a).val < win1_3.index t a * S10000x64.size a + S10000x64.size a := by
  show i ∈ ((View.whole main_call0_v46).slice (win1_3.rect t)).set ↔ _
  rw [View.set_slice_whole, Rect.mem_set_unit]
  exact Iff.rfl

/-- Row `r` of the output lies in the block of point `r / 10000`, which writes back like every point. -/
theorem row_blocks_cover (i : S100000x64.Idx) :
    ∃ t : Fin cfg1.N, (cfg1.win 3).flush t = true ∧ i ∈ ((cfg1.win 3).blk t).view.set := by
  have hN : grid1.N = 10 := N_1
  have hi0 : (i 0).val < 100000 := (i 0).isLt
  have hi1 : (i 1).val < 64 := (i 1).isLt
  have ht : (i 0).val / 10000 < cfg1.N := by show _ < grid1.N; rw [hN]; omega
  obtain ⟨-, -, -, -, -, -, e30, e31⟩ := block_indices ⟨(i 0).val / 10000, ht⟩
  have e30' : win1_3.index ⟨(i 0).val / 10000, ht⟩ (0 : Fin 2) = (i 0).val / 10000 := e30
  refine ⟨⟨(i 0).val / 10000, ht⟩, flush1_3 _, ?_⟩
  rw [mem_row_block]
  intro a
  match a with
  | ⟨0, _⟩ =>
    show win1_3.index ⟨(i 0).val / 10000, ht⟩ (0 : Fin 2) * 10000 ≤ (i 0).val
      ∧ (i 0).val < win1_3.index ⟨(i 0).val / 10000, ht⟩ (0 : Fin 2) * 10000 + 10000
    omega
  | ⟨1, _⟩ =>
    show win1_3.index ⟨(i 0).val / 10000, ht⟩ (1 : Fin 2) * 64 ≤ (i 1).val
      ∧ (i 1).val < win1_3.index ⟨(i 0).val / 10000, ht⟩ (1 : Fin 2) * 64 + 64
    omega

/-! ## The array after the ten write-backs -/

/-- Every point writes back its block of one whole-array function and the blocks cover the array, so the array
    ends holding that function: the layer of the three arrays as the region found them. -/
theorem arr (V : (c : Dev nD) → (b : Ref sig .tc) → Buf (Elt Ideal) ((c : Thread nD τ).loc b)) (c : Dev nD) :
    (dat1 (F := Ideal) V c).arrAt 3 cfg1.N
      = Cert.Gcn.mm (M := 100000) (K := 128) (N := 64)
          (Cert.Gcn.biasRelu (M := 100000) (K := 128) (V c main_call0_v44) (V c main_call0_v45)) (V c main_arg4) :=
  (dat1 V c).arrAt_eq_of_cover 3 (dense2 (V c main_call0_v44) (V c main_call0_v45) (V c main_arg4))
    (fun t _ => written_back V c t) row_blocks_cover

end Cert.KernelIdeal.Region1

end
-- ==== Proof.KValue.lean ====
/-
  The idealized kernel's result array as ONE expression over the launch arrays.

  The buffer contents at the five boundaries of @main are followed from the launch to the return. After the first stretch
  of host operations the source and destination vectors and the edge weights are functions of the edge list and the other
  arguments are as launched. The first dense product leaves, in its output array, the matrix product of the node features
  with the first weight, and touches nothing else that is read later. The second stretch aggregates that product along
  the edges and lays the first bias out as a row. The second dense product leaves the matrix product of (aggregate plus
  bias, positive part) with the second weight. The last stretch aggregates again and adds the second bias.
  On the extended reals the widening of a gathered row is the identity, so both aggregation steps are the plain ones.
-/
import proofs.«104999_j40484361732199_2_alg».proof.Proof.Gen.KernelIdeal.Frame
import proofs.«104999_j40484361732199_2_alg».proof.Proof.Spec
import proofs.«104999_j40484361732199_2_alg».proof.Proof.HostFns
import proofs.«104999_j40484361732199_2_alg».proof.Proof.Out
import proofs.«104999_j40484361732199_2_alg».proof.Proof.KHost
import proofs.«104999_j40484361732199_2_alg».proof.Proof.KHostNorm
import proofs.«104999_j40484361732199_2_alg».proof.Proof.Region0
import proofs.«104999_j40484361732199_2_alg».proof.Proof.Region1

set_option maxRecDepth 16384

noncomputable section

namespace Cert.KernelIdeal.KValue

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg) (c : Dev nD)

/-! ## At the first product's entry -/

theorem e1_src : W1 m ρ c (Proc.devRef .tc main_call0_v5) = Cert.Gcn.srcF (m ((c : Thread nD τ).loc main_arg1)) := HostRead.s0_src (W0 m ρ c)
theorem e1_dst : W1 m ρ c (Proc.devRef .tc main_call0_v6) = Cert.Gcn.dstF (m ((c : Thread nD τ).loc main_arg1)) := HostRead.s0_dst (W0 m ρ c)
theorem e1_norm : W1 m ρ c (Proc.devRef .tc main_call0_v29)
    = Cert.Gcn.normE (F := Ideal) (Cert.Gcn.srcF (m ((c : Thread nD τ).loc main_arg1))) (Cert.Gcn.dstF (m ((c : Thread nD τ).loc main_arg1))) := HostRead.s0_norm (W0 m ρ c)
theorem e1_x : W1 m ρ c (Proc.devRef .tc main_arg0) = (m ((c : Thread nD τ).loc main_arg0)) := HostRead.s0_keep_x (W0 m ρ c)
theorem e1_w1 : W1 m ρ c (Proc.devRef .tc main_arg2) = (m ((c : Thread nD τ).loc main_arg2)) := HostRead.s0_keep_w1 (W0 m ρ c)
theorem e1_b1 : W1 m ρ c (Proc.devRef .tc main_arg3) = (m ((c : Thread nD τ).loc main_arg3)) := HostRead.s0_keep_b1 (W0 m ρ c)
theorem e1_w2 : W1 m ρ c (Proc.devRef .tc main_arg4) = (m ((c : Thread nD τ).loc main_arg4)) := HostRead.s0_keep_w2 (W0 m ρ c)
theorem e1_b2 : W1 m ρ c (Proc.devRef .tc main_arg5) = (m ((c : Thread nD τ).loc main_arg5)) := HostRead.s0_keep_b2 (W0 m ρ c)

/-! ## At the first product's exit -/

/-- The first product's output array: the node features times the first weight. -/
theorem x1_lin : W2 m ρ c (Proc.devRef .tc main_call0_v30)
    = Cert.Gcn.mm (M := 100000) (K := 128) (N := 128) (m ((c : Thread nD τ).loc main_arg0)) (m ((c : Thread nD τ).loc main_arg2)) :=
  ((W2_arr m ρ c 2).trans (Region0.arr (V1 m ρ) c)).trans
    (by rw [show V1 m ρ c main_arg0 = W1 m ρ c (Proc.devRef .tc main_arg0) from rfl, show V1 m ρ c main_arg2 = W1 m ρ c (Proc.devRef .tc main_arg2) from rfl, e1_x, e1_w1])
theorem x1_src : W2 m ρ c (Proc.devRef .tc main_call0_v5) = Cert.Gcn.srcF (m ((c : Thread nD τ).loc main_arg1)) := (W2_of_ne m ρ c main_call0_v5 (by decide)).trans (e1_src m ρ c)
theorem x1_dst : W2 m ρ c (Proc.devRef .tc main_call0_v6) = Cert.Gcn.dstF (m ((c : Thread nD τ).loc main_arg1)) := (W2_of_ne m ρ c main_call0_v6 (by decide)).trans (e1_dst m ρ c)
theorem x1_norm : W2 m ρ c (Proc.devRef .tc main_call0_v29)
    = Cert.Gcn.normE (F := Ideal) (Cert.Gcn.srcF (m ((c : Thread nD τ).loc main_arg1))) (Cert.Gcn.dstF (m ((c : Thread nD τ).loc main_arg1))) := (W2_of_ne m ρ c main_call0_v29 (by decide)).trans (e1_norm m ρ c)
theorem x1_b1 : W2 m ρ c (Proc.devRef .tc main_arg3) = (m ((c : Thread nD τ).loc main_arg3)) := (W2_of_ne m ρ c main_arg3 (by decide)).trans (e1_b1 m ρ c)
theorem x1_w2 : W2 m ρ c (Proc.devRef .tc main_arg4) = (m ((c : Thread nD τ).loc main_arg4)) := (W2_of_ne m ρ c main_arg4 (by decide)).trans (e1_w2 m ρ c)
theorem x1_b2 : W2 m ρ c (Proc.devRef .tc main_arg5) = (m ((c : Thread nD τ).loc main_arg5)) := (W2_of_ne m ρ c main_arg5 (by decide)).trans (e1_b2 m ρ c)

/-! ## At the second product's entry -/

/-- The aggregated first layer. -/
theorem e2_agg : W3 m ρ c (Proc.devRef .tc main_call0_v44)
    = Cert.Gcn.agg128 (F := Ideal) (Cert.Gcn.srcF (m ((c : Thread nD τ).loc main_arg1))) (Cert.Gcn.dstF (m ((c : Thread nD τ).loc main_arg1)))
        (Cert.Gcn.normE (F := Ideal) (Cert.Gcn.srcF (m ((c : Thread nD τ).loc main_arg1))) (Cert.Gcn.dstF (m ((c : Thread nD τ).loc main_arg1))))
        (Cert.Gcn.mm (M := 100000) (K := 128) (N := 128) (m ((c : Thread nD τ).loc main_arg0)) (m ((c : Thread nD τ).loc main_arg2))) :=
  (HostRead.s1_agg (W2 m ρ c)).trans (by rw [x1_src, x1_dst, x1_norm, x1_lin]; exact Cert.Gcn.aggK128_eq _ _ _ _)
/-- The first bias as a row. -/
theorem e2_bias : W3 m ρ c (Proc.devRef .tc main_call0_v45) = shapeCast S1x128 (m ((c : Thread nD τ).loc main_arg3)) Gen.shapeCasts_S128_S1x128 :=
  (HostRead.s1_bias (W2 m ρ c)).trans (by rw [x1_b1])
theorem e2_src : W3 m ρ c (Proc.devRef .tc main_call0_v5) = Cert.Gcn.srcF (m ((c : Thread nD τ).loc main_arg1)) := (HostRead.s1_keep_src (W2 m ρ c)).trans (x1_src m ρ c)
theorem e2_dst : W3 m ρ c (Proc.devRef .tc main_call0_v6) = Cert.Gcn.dstF (m ((c : Thread nD τ).loc main_arg1)) := (HostRead.s1_keep_dst (W2 m ρ c)).trans (x1_dst m ρ c)
theorem e2_norm : W3 m ρ c (Proc.devRef .tc main_call0_v29)
    = Cert.Gcn.normE (F := Ideal) (Cert.Gcn.srcF (m ((c : Thread nD τ).loc main_arg1))) (Cert.Gcn.dstF (m ((c : Thread nD τ).loc main_arg1))) := (HostRead.s1_keep_norm (W2 m ρ c)).trans (x1_norm m ρ c)
theorem e2_w2 : W3 m ρ c (Proc.devRef .tc main_arg4) = (m ((c : Thread nD τ).loc main_arg4)) := (HostRead.s1_keep_w2 (W2 m ρ c)).trans (x1_w2 m ρ c)
theorem e2_b2 : W3 m ρ c (Proc.devRef .tc main_arg5) = (m ((c : Thread nD τ).loc main_arg5)) := (HostRead.s1_keep_b2 (W2 m ρ c)).trans (x1_b2 m ρ c)

/-! ## At the second product's exit -/

/-- The second product's output array: (aggregate plus bias, positive part) times the second weight. -/
theorem x2_lin : W4 m ρ c (Proc.devRef .tc main_call0_v46)
    = Cert.Gcn.mm (M := 100000) (K := 128) (N := 64)
        (Cert.Gcn.biasRelu (M := 100000) (K := 128)
          (Cert.Gcn.agg128 (F := Ideal) (Cert.Gcn.srcF (m ((c : Thread nD τ).loc main_arg1))) (Cert.Gcn.dstF (m ((c : Thread nD τ).loc main_arg1)))
            (Cert.Gcn.normE (F := Ideal) (Cert.Gcn.srcF (m ((c : Thread nD τ).loc main_arg1))) (Cert.Gcn.dstF (m ((c : Thread nD τ).loc main_arg1))))
            (Cert.Gcn.mm (M := 100000) (K := 128) (N := 128) (m ((c : Thread nD τ).loc main_arg0)) (m ((c : Thread nD τ).loc main_arg2))))
          (shapeCast S1x128 (m ((c : Thread nD τ).loc main_arg3)) Gen.shapeCasts_S128_S1x128))
        (m ((c : Thread nD τ).loc main_arg4)) :=
  ((W4_arr m ρ c 3).trans (Region1.arr (V3 m ρ) c)).trans
    (by rw [show V3 m ρ c main_call0_v44 = W3 m ρ c (Proc.devRef .tc main_call0_v44) from rfl, show V3 m ρ c main_call0_v45 = W3 m ρ c (Proc.devRef .tc main_call0_v45) from rfl,
          show V3 m ρ c main_arg4 = W3 m ρ c (Proc.devRef .tc main_arg4) from rfl, e2_agg, e2_bias, e2_w2])
theorem x2_src : W4 m ρ c (Proc.devRef .tc main_call0_v5) = Cert.Gcn.srcF (m ((c : Thread nD τ).loc main_arg1)) := (W4_of_ne m ρ c main_call0_v5 (by decide)).trans (e2_src m ρ c)
theorem x2_dst : W4 m ρ c (Proc.devRef .tc main_call0_v6) = Cert.Gcn.dstF (m ((c : Thread nD τ).loc main_arg1)) := (W4_of_ne m ρ c main_call0_v6 (by decide)).trans (e2_dst m ρ c)
theorem x2_norm : W4 m ρ c (Proc.devRef .tc main_call0_v29)
    = Cert.Gcn.normE (F := Ideal) (Cert.Gcn.srcF (m ((c : Thread nD τ).loc main_arg1))) (Cert.Gcn.dstF (m ((c : Thread nD τ).loc main_arg1))) := (W4_of_ne m ρ c main_call0_v29 (by decide)).trans (e2_norm m ρ c)
theorem x2_b2 : W4 m ρ c (Proc.devRef .tc main_arg5) = (m ((c : Thread nD τ).loc main_arg5)) := (W4_of_ne m ρ c main_arg5 (by decide)).trans (e2_b2 m ρ c)

/-! ## At the return -/

/-- The last boundary's contents at the result buffer are the two layers of the launch arrays. -/
theorem result : W5 m ρ c (Proc.devRef .tc main_v0)
    = Cert.Gcn.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (HostRead.s2_out (W4 m ρ c)).trans (by rw [x2_src, x2_dst, x2_norm, x2_lin, x2_b2, Cert.Gcn.aggK64_eq]; rfl)

end Cert.KernelIdeal.KValue

end
-- ==== Proof.RefValue.lean ====
/-
  The idealized reference's result as the two layers of its arguments.

  The reference's run ends with its result buffer at the composed term of its eighty-three host operations. That term
  is the shared steps applied in order (`res_steps`, at any float instance: the gather, scatter and contraction records
  of the two programs have the same fields, and a side condition is a proof): source and destination vectors and edge
  weights from the edge list, a whole dense product, an aggregation, the first bias broadcast to every row and the
  maximum with a zero matrix, a second dense product, an aggregation, the second bias. On the extended reals the
  host's general dot is the plain sum over `k` (`dot128_eq`, `dot64_eq`), and bias-then-positive-part is the function of
  the bias laid out as a `[1, 128]` row (`act_eq`): entry `(i, j)` of the broadcast is `b1(j)`, which is entry `(0, j)` of
  the row, and the zero matrix holds the number `0`.
-/
import proofs.«104999_j40484361732199_2_alg».proof.Proof.RefRun
import proofs.«104999_j40484361732199_2_alg».proof.Proof.Gen.KernelIdeal
import proofs.«104999_j40484361732199_2_alg».proof.Proof.HostFns
import proofs.«104999_j40484361732199_2_alg».proof.Proof.Spec
import proofs.«104999_j40484361732199_2_alg».proof.Proof.Out
import proofs.«104999_j40484361732199_2_alg».proof.Proof.LibMatmul
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Idealize.ShloMosaic Idealize.ShloMosaic.TcCoe Idealize.SL.Sem Idealize.ShloMosaic.ValueIdx

section Act
open Cert.ReferenceIdeal Cert.ReferenceIdeal.Facts₀
variable {F : FTy → Type} [FloatOps F] [Cert.ReferenceIdeal.Facts₀]

/-- The first layer's bias added to every row and the maximum with a zero matrix, as the reference spells it. -/
def act (a : FVec F S100000x128 .f32) (b1 : FVec F S128 .f32) : FVec F S100000x128 .f32 :=
  maximumf (addf a (broadcastInDim S100000x128 ![0, 1] bcast_S1x128_S100000x128_0_1 (broadcastInDim S1x128 ![1] bcast_S128_S1x128_1 b1)))
    (broadcastInDim S100000x128 ![] bcast_S_S100000x128 (constant S_ .f32 0x00000000#32))
end Act

section Steps
variable {F : FTy → Type} [FloatOps F]

set_option maxHeartbeats 4000000 in
/-- The reference's composed term is the shared steps in order, at any float instance. -/
theorem res_steps (m : (ℓ : Loc Cert.ReferenceIdeal.nD Cert.ReferenceIdeal.τ Cert.ReferenceIdeal.sig) → Buf (Elt F) ℓ) (c : Dev Cert.ReferenceIdeal.nD) :
    Cert.ReferenceIdeal.ValueP.res_main_v64 (F := F) m c
      = Cert.Gcn.addBias64 (F := F)
          (Cert.Gcn.agg64 (F := F) (Cert.Gcn.srcF (m ((c.tc : Thread Cert.ReferenceIdeal.nD Cert.ReferenceIdeal.τ).loc Cert.ReferenceIdeal.main_arg1))) (Cert.Gcn.dstF (m ((c.tc : Thread Cert.ReferenceIdeal.nD Cert.ReferenceIdeal.τ).loc Cert.ReferenceIdeal.main_arg1)))
            (Cert.Gcn.normE (F := F) (Cert.Gcn.srcF (m ((c.tc : Thread Cert.ReferenceIdeal.nD Cert.ReferenceIdeal.τ).loc Cert.ReferenceIdeal.main_arg1))) (Cert.Gcn.dstF (m ((c.tc : Thread Cert.ReferenceIdeal.nD Cert.ReferenceIdeal.τ).loc Cert.ReferenceIdeal.main_arg1))))
            (Host.dotGeneral Cert.ReferenceIdeal.dot_S100000x128_S128x64_S100000x64_1_0_0_1_n_n none
              (act (F := F)
                (Cert.Gcn.agg128 (F := F) (Cert.Gcn.srcF (m ((c.tc : Thread Cert.ReferenceIdeal.nD Cert.ReferenceIdeal.τ).loc Cert.ReferenceIdeal.main_arg1))) (Cert.Gcn.dstF (m ((c.tc : Thread Cert.ReferenceIdeal.nD Cert.ReferenceIdeal.τ).loc Cert.ReferenceIdeal.main_arg1)))
                  (Cert.Gcn.normE (F := F) (Cert.Gcn.srcF (m ((c.tc : Thread Cert.ReferenceIdeal.nD Cert.ReferenceIdeal.τ).loc Cert.ReferenceIdeal.main_arg1))) (Cert.Gcn.dstF (m ((c.tc : Thread Cert.ReferenceIdeal.nD Cert.ReferenceIdeal.τ).loc Cert.ReferenceIdeal.main_arg1))))
                  (Host.dotGeneral Cert.ReferenceIdeal.dot_S100000x128_S128x128_S100000x128_1_0_0_1_n_n none (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg2))))
                (m ((c.tc : Thread Cert.ReferenceIdeal.nD Cert.ReferenceIdeal.τ).loc Cert.ReferenceIdeal.main_arg3)))
              (m ((c.tc : Thread Cert.ReferenceIdeal.nD Cert.ReferenceIdeal.τ).loc Cert.ReferenceIdeal.main_arg4))))
          (m ((c.tc : Thread Cert.ReferenceIdeal.nD Cert.ReferenceIdeal.τ).loc Cert.ReferenceIdeal.main_arg5)) := by
  unfold Cert.ReferenceIdeal.ValueP.res_main_v64 act Cert.Gcn.addBias64 Cert.Gcn.agg64 Cert.Gcn.agg128 Cert.Gcn.normE
    Cert.Gcn.degInvSqrt Cert.Gcn.deg Cert.Gcn.wrapIdx Cert.Gcn.srcF Cert.Gcn.dstF
  rfl
end Steps

/-! ## On the extended reals -/

/-- The reference's first contraction is the plain one. -/
theorem dot128_plain : Cert.ReferenceIdeal.dot_S100000x128_S128x128_S100000x128_1_0_0_1_n_n = DotDims.plain 100000 128 128 := rfl
/-- The reference's second contraction is the plain one. -/
theorem dot64_plain : Cert.ReferenceIdeal.dot_S100000x128_S128x64_S100000x64_1_0_0_1_n_n = DotDims.plain 100000 128 64 := rfl

/-- The host's general dot of `[100000, 128]` by `[128, 128]` is the sum over `k`. -/
theorem dot128_eq (x : FVec Ideal Cert.ReferenceIdeal.S100000x128 .f32) (w : FVec Ideal Cert.ReferenceIdeal.S128x128 .f32) :
    Host.dotGeneral (F := Ideal) Cert.ReferenceIdeal.dot_S100000x128_S128x128_S100000x128_1_0_0_1_n_n none x w
      = Cert.Gcn.mm (M := 100000) (K := 128) (N := 128) x w := by
  funext i
  obtain ⟨p, q, rfl⟩ : ∃ (p : Fin 100000) (q : Fin 128), i = ix2 p q := ⟨i 0, i 1, eq_ix2 i⟩
  rw [Cert.Gcn.mm_apply, dot128_plain]
  exact Cert.MatOps.dotGeneral_plain_apply none x w p q

/-- The host's general dot of `[100000, 128]` by `[128, 64]` is the sum over `k`. -/
theorem dot64_eq (x : FVec Ideal Cert.ReferenceIdeal.S100000x128 .f32) (w : FVec Ideal Cert.ReferenceIdeal.S128x64 .f32) :
    Host.dotGeneral (F := Ideal) Cert.ReferenceIdeal.dot_S100000x128_S128x64_S100000x64_1_0_0_1_n_n none x w
      = Cert.Gcn.mm (M := 100000) (K := 128) (N := 64) x w := by
  funext i
  obtain ⟨p, q, rfl⟩ : ∃ (p : Fin 100000) (q : Fin 64), i = ix2 p q := ⟨i 0, i 1, eq_ix2 i⟩
  rw [Cert.Gcn.mm_apply, dot64_plain]
  exact Cert.MatOps.dotGeneral_plain_apply none x w p q

/-- Bias, then positive part: entry `(p, q)` is the larger of `a(p, q) + b1(q)` and `0`, and `b1(q)` is entry `(0, q)` of
    the bias laid out as a row. -/
theorem act_eq (a : FVec Ideal Cert.ReferenceIdeal.S100000x128 .f32) (b1 : FVec Ideal Cert.ReferenceIdeal.S128 .f32) :
    act (F := Ideal) a b1
      = Cert.Gcn.biasRelu (M := 100000) (K := 128) a (shapeCast Cert.KernelIdeal.S1x128 b1 Cert.KernelIdeal.Gen.shapeCasts_S128_S1x128) := by
  funext i
  obtain ⟨p, q, rfl⟩ : ∃ (p : Fin 100000) (q : Fin 128), i = ix2 p q := ⟨i 0, i 1, eq_ix2 i⟩
  rw [Cert.Gcn.biasRelu_apply]
  unfold act
  rw [maximumf_apply, addf_apply]
  rw [broadcastInDim_apply ![0, 1] _ _ (ix2 p q) (ix2 0 q) (fun a => by match a with | ⟨0, _⟩ => rfl | ⟨1, _⟩ => rfl)]
  rw [broadcastInDim_apply ![1] _ b1 (ix2 0 q) (ix1 q) (fun a => by match a with | ⟨0, _⟩ => rfl)]
  rw [broadcastInDim_apply ![] _ _ (ix2 p q) ix0 (fun a => a.elim0)]
  rw [constant_apply, Ideal.ofBits_zero_f32]
  rw [shapeCast_apply b1 Cert.KernelIdeal.Gen.shapeCasts_S128_S1x128 (ix2 0 q) (ix1 q)
    (by rw [Shape.rowMajor_val_one, Shape.rowMajor_val_two]; show q.val = 0 * 128 + q.val; omega)]

/-- The reference's result buffer holds the two layers of its arguments. -/
theorem result (m : (ℓ : Loc Cert.ReferenceIdeal.nD Cert.ReferenceIdeal.τ Cert.ReferenceIdeal.sig) → Buf (Elt Ideal) ℓ) (c : Dev Cert.ReferenceIdeal.nD) :
    Cert.ReferenceIdeal.ValueP.res_main_v64 (F := Ideal) m c
      = Cert.Gcn.out (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) := by
  rw [res_steps, dot128_eq, act_eq, dot64_eq]
  rfl

end Cert.ReferenceIdeal.RefValue

end
-- ==== Proof.lean ====
/-
  A two-layer graph convolution: the kernel's program against its reference, on the extended reals.

  Both programs compute, from node features `x : [100000, 128]`, an edge list `[2, 1600000]`, weights `W1 : [128, 128]`,
  `W2 : [128, 64]` and biases `b1`, `b2`:  `A (relu (A (x · W1) + b1) · W2) + b2`, where `A` gathers the rows of its argument
  at the sources of the edges (self-loops appended), scales row `e` by `d(src e)^(-1/2) · d(dst e)^(-1/2)` (`d` the in-degree,
  the factor taken as `0` where the degree is not positive) and scatter-adds the rows at the destinations. The edge
  arithmetic and both aggregations are the same host operations in the two programs. They differ in the two dense
  products: the reference forms each as one contraction of whole arrays; the kernel's program forms each in a pipeline of
  ten blocks of ten thousand rows, rounding the operands and the product to a narrower float format, and fuses the
  bias and the positive part into the second one. On the extended reals a change of format is the identity and a
  product accumulated into zero is the plain sum over the contracted index; an entry of a product depends on one row
  of the left factor only, so ten row blocks of the product ARE the product. Hence both result arrays are
  `Cert.Gcn.out` of the arguments (Proof/Out.lean): for the kernel's program by following the buffer contents through
  its five segments (Proof/KValue.lean over Proof/KHost.lean, Proof/KHostNorm.lean, Proof/Region0.lean, Proof/Region1.lean and
  the run Proof/KernelRun.lean), for the reference by reading its run's composed term (Proof/RefValue.lean over
  Proof/RefRun.lean). No law used needs the inputs finite, so the precondition is never opened. The idealization rewrote
  no operation of the kernel's program, so the fourth conjunct is `True`.
-/
import proofs.«104999_j40484361732199_2_alg».proof.Defs
import proofs.«104999_j40484361732199_2_alg».proof.Proof.Gen.Kernel
import proofs.«104999_j40484361732199_2_alg».proof.Proof.Gen.Kernel.Skeleton
import proofs.«104999_j40484361732199_2_alg».proof.Proof.Gen.Kernel.Launch
import proofs.«104999_j40484361732199_2_alg».proof.Proof.Gen.Kernel.Points
import proofs.«104999_j40484361732199_2_alg».proof.Proof.Gen.Kernel.Frame
import proofs.«104999_j40484361732199_2_alg».proof.Proof.Gen.KernelIdeal
import proofs.«104999_j40484361732199_2_alg».proof.Proof.Gen.KernelIdeal.Skeleton
import proofs.«104999_j40484361732199_2_alg».proof.Proof.Gen.KernelIdeal.Launch
import proofs.«104999_j40484361732199_2_alg».proof.Proof.Gen.KernelIdeal.Points
import proofs.«104999_j40484361732199_2_alg».proof.Proof.Gen.KernelIdeal.Frame
import proofs.«104999_j40484361732199_2_alg».proof.Proof.Gen.ReferenceIdeal
import proofs.«104999_j40484361732199_2_alg».proof.Proof.Gen.Pre_finite_inputs
import proofs.«104999_j40484361732199_2_alg».proof.Proof.Out
import proofs.«104999_j40484361732199_2_alg».proof.Proof.KernelRun
import proofs.«104999_j40484361732199_2_alg».proof.Proof.KValue
import proofs.«104999_j40484361732199_2_alg».proof.Proof.RefRun
import proofs.«104999_j40484361732199_2_alg».proof.Proof.RefValue
import Idealize.ShloMosaic.Adequacy
import Idealize.ShloMosaic.Init

noncomputable section

namespace Cert.Proof

open Idealize.ShloMosaic Idealize.ShloMosaic.TcCoe Idealize.SL.Sem

/-- The kernel's program as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run, the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- The idealized kernel's program ends with its result array at the two layers of its arguments, the arguments as
    launched: the run, and the last boundary's contents read back to the launch arrays. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v0)
        = Cert.Gcn.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run Cert.KernelIdeal.defs _ _).mono (fun _ h c => ⟨(h c).1.trans (Cert.KernelIdeal.KValue.result m ρ c), (h c).2⟩)
    (Cert.KernelIdeal.RunValue.run (F := Ideal) m ρ)

/-- From memories agreeing on the arguments both programs end with their result arrays at the two layers of the same
    six arrays. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5⟩ := hagree c
  rw [Cert.ReferenceIdeal.RefValue.result, h0, h1, h2, h3, h4, h5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
